-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : FVec F S512x4096 .f32) (main_arg2 : FVec F S4096x512 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S1x4096 : Shape := ⟨2, ![1, 4096]⟩
abbrev S1x256x4096 : Shape := ⟨3, ![1, 256, 4096]⟩
abbrev S256x4096 : Shape := ⟨2, ![256, 4096]⟩
abbrev S256x512 : Shape := ⟨2, ![256, 512]⟩
abbrev S128x512 : Shape := ⟨2, ![128, 512]⟩
abbrev S512 : Shape := ⟨1, ![512]⟩
abbrev S1x512 : Shape := ⟨2, ![1, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .f32⟩
  | .hbm, ⟨2, _⟩ => ⟨S4096x512, .f32⟩
  | .hbm, ⟨3, _⟩ => ⟨S4096, .f32⟩
  | .hbm, ⟨4, _⟩ => ⟨S4096x512, .f32⟩
  | .hbm, ⟨5, _⟩ => ⟨S512x4096, .f32⟩
  | .hbm, ⟨6, _⟩ => ⟨S512x4096, .bf16⟩
  | .hbm, ⟨7, _⟩ => ⟨S1x4096, .f32⟩
  | .hbm, ⟨8, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x512, .f32⟩
  | .local _ .vmem, ⟨3, _⟩ => ⟨S512x4096, .bf16⟩
  | .local _ .vmem, ⟨4, _⟩ => ⟨S1x4096, .f32⟩
  | .local _ .vmem, ⟨5, _⟩ => ⟨S1x256x4096, .f32⟩
  | .local _ .vmem, ⟨6, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x4096_S4096x512_1_0 : S512x4096.Transposes [1, 0] S4096x512
  transposes_S4096x512_S512x4096_1_0 : S4096x512.Transposes [1, 0] S512x4096
  bitsLt_bf16_f32 : FTy.bits .bf16 < FTy.bits .f32
  shapeCasts_S4096_S1x4096 : S4096.ShapeCasts S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S256x512_o0_0_S128x512 : S256x512.Slices ![0, 0] S128x512
  reduces_S128x512_S512 : S128x512.Reduces [0] S512
  shapeCasts_S512_S1x512 : S512.ShapeCasts S1x512
  broadcasts_S1x512_S128x512 : S1x512.Broadcasts S128x512
  slices_S256x512_o128_0_S128x512 : S256x512.Slices ![128, 0] S128x512
  concatenates_S128x512_S128x512_S256x512_d0 : Shape.Concatenates [S128x512, S128x512] S256x512 0
  broadcasts_S1x4096_S256x4096 : S1x4096.Broadcasts S256x4096
  shapeCasts_S256x4096_S1x256x4096 : S256x4096.ShapeCasts S1x256x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S4x4096x4096.size a
  hwx0_4 : ∀ i : grid0.Coords, EltTy.bits .f32 = 32 ∨ (Rect.block (s := S4x4096x4096) S1x256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S4x4096x512 : Shape := ⟨3, ![4, 4096, 512]⟩
abbrev S4x512x4096 : Shape := ⟨3, ![4, 512, 4096]⟩
abbrev S4x512x32x128 : Shape := ⟨4, ![4, 512, 32, 128]⟩
abbrev S_ : Shape := ⟨0, ![]⟩
abbrev S4x512x32 : Shape := ⟨3, ![4, 512, 32]⟩
abbrev S4x512x32x1 : Shape := ⟨4, ![4, 512, 32, 1]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .f32⟩
  | .hbm, ⟨2, _⟩ => ⟨S4096x512, .f32⟩
  | .hbm, ⟨3, _⟩ => ⟨S4096, .f32⟩
  | .hbm, ⟨4, _⟩ => ⟨S4x4096x512, .f32⟩
  | .hbm, ⟨5, _⟩ => ⟨S4x512x4096, .f32⟩
  | .hbm, ⟨6, _⟩ => ⟨S4x512x32x128, .f32⟩
  | .hbm, ⟨7, _⟩ => ⟨S_, .f32⟩
  | .hbm, ⟨8, _⟩ => ⟨S4x512x32, .f32⟩
  | .hbm, ⟨9, _⟩ => ⟨S4x512x32x1, .f32⟩
  | .hbm, ⟨10, _⟩ => ⟨S_, .f32⟩
  | .hbm, ⟨11, _⟩ => ⟨S4x512x32, .f32⟩
  | .hbm, ⟨12, _⟩ => ⟨S4x512x32x1, .f32⟩
  | .hbm, ⟨13, _⟩ => ⟨S4x512x32x1, .f32⟩
  | .hbm, ⟨14, _⟩ => ⟨S_, .f32⟩
  | .hbm, ⟨15, _⟩ => ⟨S4x512x32x1, .f32⟩
  | .hbm, ⟨16, _⟩ => ⟨S4x512x32x1, .f32⟩
  | .hbm, ⟨17, _⟩ => ⟨S_, .f32⟩
  | .hbm, ⟨18, _⟩ => ⟨S4x512x32x1, .f32⟩
  | .hbm, ⟨19, _⟩ => ⟨S4x512x32x1, .f32⟩
  | .hbm, ⟨20, _⟩ => ⟨S4x512x32x128, .f32⟩
  | .hbm, ⟨21, _⟩ => ⟨S4x512x32x128, .f32⟩
  | .hbm, ⟨22, _⟩ => ⟨S4x512x32x128, .f32⟩
  | .hbm, ⟨23, _⟩ => ⟨S4x512x32x128, .f32⟩
  | .hbm, ⟨24, _⟩ => ⟨S4x512x32x128, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S4x512x32x128, .f32⟩
  | .hbm, ⟨29, _⟩ => ⟨S4x512x32x128, .f32⟩
  | .hbm, ⟨30, _⟩ => ⟨S_, .f32⟩
  | .hbm, ⟨31, _⟩ => ⟨S4x512x32x128, .f32⟩
  | .hbm, ⟨32, _⟩ => ⟨S4x512x32x128, .f32⟩
  | .hbm, ⟨33, _⟩ => ⟨S4x512x32x128, .f32⟩
  | .hbm, ⟨34, _⟩ => ⟨S4x512x32x128, .f32⟩
  | .hbm, ⟨35, _⟩ => ⟨S4x512x32x128, .f32⟩
  | .hbm, ⟨36, _⟩ => ⟨S4x512x32x128, .f32⟩
  | .hbm, ⟨37, _⟩ => ⟨S4x512x4096, .f32⟩
  | .hbm, ⟨38, _⟩ => ⟨S4x4096x512, .f32⟩
  | .hbm, ⟨39, _⟩ => ⟨S4x4096x4096, .f32⟩
  | .hbm, ⟨40, _⟩ => ⟨S1x1x4096, .f32⟩
  | .hbm, ⟨41, _⟩ => ⟨S4x4096x4096, .f32⟩
  | .hbm, ⟨42, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  transposes_S4x4096x512_S4x512x4096_0_2_1 : S4x4096x512.Transposes [0, 2, 1] S4x512x4096
  shapeCasts_S4x512x4096_S4x512x32x128 : S4x512x4096.ShapeCasts S4x512x32x128
  reducesTo_S4x512x32x128_S4x512x32_d3 : S4x512x32x128.ReducesTo [3] S4x512x32
  h_S_ : 0 < S_.numel
  bcast_S4x512x32_S4x512x32x1_0_1_2 : S4x512x32.BroadcastsInDim S4x512x32x1 (![0, 1, 2] : Fin 3 → Fin S4x512x32x1.rank)
  bcast_S_S4x512x32x1 : S_.BroadcastsInDim S4x512x32x1 (![] : Fin 0 → Fin S4x512x32x1.rank)
  bcast_S4x512x32x1_S4x512x32x128_0_1_2_3 : S4x512x32x1.BroadcastsInDim S4x512x32x128 (![0, 1, 2, 3] : Fin 4 → Fin S4x512x32x128.rank)
  bcast_S_S4x512x32x128 : S_.BroadcastsInDim S4x512x32x128 (![] : Fin 0 → Fin S4x512x32x128.rank)
  shapeCasts_S4x512x32x128_S4x512x4096 : S4x512x32x128.ShapeCasts S4x512x4096
  transposes_S4x512x4096_S4x4096x512_0_2_1 : S4x512x4096.Transposes [0, 2, 1] S4x4096x512
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S512x4096_S4x4096x512_2_1_01_0_n_n_wf : DotDims.WF S4x4096x4096 S512x4096 S4x4096x512 [2] [1] [0, 1] [0] [] []
  dot_S4x4096x512_S4096x512_S4x4096x4096_2_1_01_0_n_n_wf : DotDims.WF S4x4096x512 S4096x512 S4x4096x4096 [2] [1] [0, 1] [0] [] []

variable [Facts₀]

def dot_S4x4096x4096_S512x4096_S4x4096x512_2_1_01_0_n_n : DotDims S4x4096x4096 S512x4096 S4x4096x512 where
  lhsContracting := [2]
  rhsContracting := [1]
  lhsNonContracting := [0, 1]
  rhsNonContracting := [0]
  lhsBatch := []
  rhsBatch := []
  wf := dot_S4x4096x4096_S512x4096_S4x4096x512_2_1_01_0_n_n_wf
def dot_S4x4096x512_S4096x512_S4x4096x4096_2_1_01_0_n_n : DotDims S4x4096x512 S4096x512 S4x4096x4096 where
  lhsContracting := [2]
  rhsContracting := [1]
  lhsNonContracting := [0, 1]
  rhsNonContracting := [0]
  lhsBatch := []
  rhsBatch := []
  wf := dot_S4x4096x512_S4096x512_S4x4096x4096_2_1_01_0_n_n_wf

class Facts : Prop extends Facts₀ where

variable [Facts]
-- ==== Proof.GroupQuant.lean ====
/-
  Low-rank projection with per-group affine quantization of the middle activation, as ONE function of the four
  argument arrays, index by index, on the extended reals.

  With X : [4, 4096, 4096] (batch, token, feature), B : [512, 4096] (rank channel, feature), A : [4096, 512]
  (output feature, rank channel) and a : [4096]:

    y[b, t, r]   = ∑ d, X[b, t, d] · B[r, d]                                   (down projection)
    lo[b, g, r]  = min over the 128 tokens t of group g of y[b, t, r],   hi likewise with max
    s[b, g, r]   = max ((hi − lo) / 3) ε                                       (the quantization step; ε > 0)
    q[b, t, r]   = min 3 (max 0 (round-half-even ((y − lo) / s)))              (the level, one of 0 … 3)
    z[b, t, r]   = q · s + lo                                                  (dequantized)
    out[b, t, o] = ∑ r, z[b, t, r] · A[o, r] + a[o]                            (up projection and bias)

  The one algebraic law needed between two spellings of the level is that multiplying by the reciprocal of a
  NONZERO step is dividing by it: x · (1 / s) = x / s on the extended reals (the quotient by a nonzero s is the
  product with its inverse, and 1 · s⁻¹ = s⁻¹). The step is never zero because it is at least ε > 0. No finiteness
  of the inputs is used.
-/
import Idealize.ShloMosaic.PureOps.Ideal
import Idealize.ShloMosaic.PureOps.Ideal.Laws
import Idealize.ShloMosaic.Lib.ValueIdx

noncomputable section

namespace Cert.GroupQuant

open Idealize.ShloMosaic Idealize.ShloMosaic.ValueIdx

/-! ## The float words the two programs spell, as extended reals -/

/-- The pattern of `+0.0` denotes `0`. -/
theorem word_zero : Ideal.ofBits .f32 0x00000000#32 = 0 := by
  simp [Ideal.ofBits, Ideal.ieee]

/-- The pattern of `1.0` denotes `1`. -/
theorem word_one : Ideal.ofBits .f32 0x3F800000#32 = 1 := by
  simp [Ideal.ofBits, Ideal.ieee, -EReal.coe_mul]; norm_num

/-- The pattern of `3.0` denotes the real `3`. -/
theorem word_three : Ideal.ofBits .f32 0x40400000#32 = ((3 : ℝ) : EReal) := by
  simp [Ideal.ofBits, Ideal.ieee, -EReal.coe_mul]; norm_num

/-- The floor `ε` of the quantization step (the pattern of the float nearest `1e-8`) is positive. -/
theorem word_eps_pos : (0 : EReal) < Ideal.ofBits .f32 0x322BCC77#32 := by
  simp [Ideal.ofBits, Ideal.ieee, -EReal.coe_mul]

/-- The integer words `0` and `3`, converted to a float, are the reals `0` and `3`. -/
theorem int_zero : (((0#32 : BitVec 32).toInt : ℝ) : EReal) = 0 := by
  have h : (0#32 : BitVec 32).toInt = 0 := by decide
  rw [h]; norm_num

theorem int_three : (((3#32 : BitVec 32).toInt : ℝ) : EReal) = ((3 : ℝ) : EReal) := by
  have h : (3#32 : BitVec 32).toInt = 3 := by decide
  rw [h]; norm_num

/-! ## The scalar quantizer -/

/-- Round to the nearest integer, ties to even; the infinities fixed. -/
abbrev rnd (x : EReal) : EReal := Ideal.liftRound Ideal.roundHalfEven x

/-- The quantization step of a group with extremes `lo`, `hi`: a third of the range, but at least `ε`. -/
def step (lo hi : EReal) : EReal :=
  max (Ideal.div (hi - lo) (Ideal.ofBits .f32 0x40400000#32)) (Ideal.ofBits .f32 0x322BCC77#32)

/-- The step is never zero: it is at least `ε > 0`. -/
theorem step_ne_zero (lo hi : EReal) : step lo hi ≠ 0 :=
  (lt_of_lt_of_le word_eps_pos (le_max_right _ _)).ne'

/-- The dequantized value of `y` in a group with extremes `lo`, `hi`: the level `min 3 (max 0 (round ((y − lo) / s)))`
    times the step, plus `lo`. -/
def deq (y lo hi : EReal) : EReal :=
  min ((3 : ℝ) : EReal) (max 0 (rnd (Ideal.div (y - lo) (step lo hi)))) * step lo hi + lo

/-- Multiplying by the reciprocal of a nonzero `s` is dividing by `s`: the quotient by a nonzero divisor is the product
    with its inverse, and `1 · s⁻¹ = s⁻¹`. -/
theorem mul_div_one (x s : EReal) (hs : s ≠ 0) : x * Ideal.div 1 s = Ideal.div x s := by
  unfold Ideal.div
  rw [if_neg hs, if_neg hs, one_mul]

/-- The level computed with the reciprocal of the step, its bounds spelt as float words: the same dequantized value. -/
theorem deq_of_reciprocal (y lo hi : EReal) :
    min (Ideal.ofBits .f32 0x40400000#32) (max (Ideal.ofBits .f32 0x00000000#32)
        (rnd ((y - lo) * Ideal.div (Ideal.ofBits .f32 0x3F800000#32) (step lo hi)))) * step lo hi + lo
      = deq y lo hi := by
  rw [word_one, word_zero, word_three, mul_div_one _ _ (step_ne_zero lo hi)]
  rfl

/-- The level computed with the quotient, its bounds converted from the integers `0` and `3`: the same again. -/
theorem deq_of_quotient (y lo hi : EReal) :
    min (((3#32 : BitVec 32).toInt : ℝ) : EReal) (max (((0#32 : BitVec 32).toInt : ℝ) : EReal)
        (rnd (Ideal.div (y - lo) (step lo hi)))) * step lo hi + lo
      = deq y lo hi := by
  rw [int_zero, int_three]
  rfl

/-! ## The whole result, index by index -/

/-- Token `j` of group `g` (groups of 128 consecutive tokens). -/
abbrev tok (g : Fin 32) (j : Fin 128) : Fin 4096 := ⟨128 * g.val + j.val, by omega⟩

/-- The group of token `t`. -/
abbrev grp (t : Fin 4096) : Fin 32 := ⟨t.val / 128, by omega⟩

variable (X : (⟨3, ![4, 4096, 4096]⟩ : Shape).Idx → EReal) (B : (⟨2, ![512, 4096]⟩ : Shape).Idx → EReal)
  (A : (⟨2, ![4096, 512]⟩ : Shape).Idx → EReal) (a : (⟨1, ![4096]⟩ : Shape).Idx → EReal)

/-- The down projection. -/
def proj (b : Fin 4) (t : Fin 4096) (r : Fin 512) : EReal := ∑ d : Fin 4096, X (ix3 b t d) * B (ix2 r d)

/-- The least value of channel `r` over the tokens of group `g` (a fold of `min` from `+∞`'s pattern). -/
def lo (b : Fin 4) (g : Fin 32) (r : Fin 512) : EReal :=
  (Finset.univ : Finset (Fin 128)).fold min (Ideal.ofBits .f32 0x7F800000#32) (fun j => proj X B b (tok g j) r)

/-- The greatest (a fold of `max` from `−∞`'s pattern). -/
def hi (b : Fin 4) (g : Fin 32) (r : Fin 512) : EReal :=
  (Finset.univ : Finset (Fin 128)).fold max (Ideal.ofBits .f32 0xFF800000#32) (fun j => proj X B b (tok g j) r)

/-- The dequantized middle activation. -/
def mid (b : Fin 4) (t : Fin 4096) (r : Fin 512) : EReal :=
  deq (proj X B b t r) (lo X B b (grp t) r) (hi X B b (grp t) r)

/-- The result at batch `b`, token `t`, output feature `o`. -/
def outAt (b : Fin 4) (t : Fin 4096) (o : Fin 4096) : EReal :=
  (∑ r : Fin 512, mid X B b t r * A (ix2 o r)) + a (ix1 o)

/-- The result array. -/
def out : (⟨3, ![4, 4096, 4096]⟩ : Shape).Idx → EReal := fun i => outAt X B A a (i 0) (i 1) (i 2)

end Cert.GroupQuant

end
-- ==== Proof.BlockLayout.lean ====
/-
  The kernel body's re-laying operations at this kernel's shapes, each as ONE function of its operand, index by
  index: the casts between [512] / [1, 512] and between [256, 4096] / [1, 256, 4096], a row broadcast down the
  rows, the two 128-row halves of a [256, 512] array and their concatenation back, a column minimum and maximum
  over 128 rows as a fold over the row coordinate, and the two matrix products as sums over the contracted
  coordinate. Nothing here depends on what the operands hold.
-/
import proofs.«145089_j23596550324371_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockLayout

open Cert.KernelIdeal Idealize.ShloMosaic Idealize.ShloMosaic.ValueIdx

variable {α : Type}

/-! ## Casts that add or drop a leading unit axis -/

/-- A vector [512] viewed as one row [1, 512]: entry (0, r) is entry r. -/
theorem row_of_vec (v : S512.Idx → α) (h : S512.ShapeCasts S1x512) :
    shapeCast S1x512 v h = fun i => v (ix1 (i 1)) := by
  funext i
  refine shapeCast_apply v h i (ix1 (i 1)) ?_
  rw [Shape.rowMajor_val_one, Shape.rowMajor_val_two]
  have h0 : (i 0).val < 1 := (i 0).isLt
  show (i 1).val = (i 0).val * 512 + (i 1).val
  omega

/-- A block [1, 256, 4096] viewed [256, 4096]: entry (p, d) is entry (0, p, d). -/
theorem mat_of_block (v : S1x256x4096.Idx → α) (h : S1x256x4096.ShapeCasts S256x4096) :
    shapeCast S256x4096 v h = fun i => v (ix3 0 (i 0) (i 1)) := by
  funext i
  refine shapeCast_apply v h i (ix3 0 (i 0) (i 1)) ?_
  rw [Shape.rowMajor_val_three, Shape.rowMajor_val_two]
  show ((0 : Nat) * 256 + (i 0).val) * 4096 + (i 1).val = (i 0).val * 4096 + (i 1).val
  omega

/-- A matrix [256, 4096] viewed as a block [1, 256, 4096]: entry (0, p, o) is entry (p, o). -/
theorem block_of_mat (v : S256x4096.Idx → α) (h : S256x4096.ShapeCasts S1x256x4096) :
    shapeCast S1x256x4096 v h = fun i => v (ix2 (i 1) (i 2)) := by
  funext i
  refine shapeCast_apply v h i (ix2 (i 1) (i 2)) ?_
  rw [Shape.rowMajor_val_three, Shape.rowMajor_val_two]
  have h0 : (i 0).val < 1 := (i 0).isLt
  show (i 1).val * 4096 + (i 2).val = ((i 0).val * 256 + (i 1).val) * 4096 + (i 2).val
  omega

/-! ## A row broadcast down the rows -/

/-- One row [1, 512] broadcast to [128, 512]: entry (j, r) is entry (0, r). -/
theorem rows_of_row (v : S1x512.Idx → α) (h : S1x512.Broadcasts S128x512) :
    broadcastTo S128x512 v h = fun i => v (ix2 0 (i 1)) := by
  funext i
  refine broadcastTo_apply v h i (ix2 0 (i 1)) fun a => ?_
  match a with
  | ⟨0, _⟩ => rfl
  | ⟨1, _⟩ => rfl

/-- One row [1, 4096] broadcast to [256, 4096]: entry (p, o) is entry (0, o). -/
theorem rows_of_row_wide (v : S1x4096.Idx → α) (h : S1x4096.Broadcasts S256x4096) :
    broadcastTo S256x4096 v h = fun i => v (ix2 0 (i 1)) := by
  funext i
  refine broadcastTo_apply v h i (ix2 0 (i 1)) fun a => ?_
  match a with
  | ⟨0, _⟩ => rfl
  | ⟨1, _⟩ => rfl

/-! ## The two 128-row halves of a [256, 512] array, and their concatenation -/

/-- Row `j` of half `g` is row `128 g + j`. -/
abbrev rowOf (g : Fin 2) (j : Fin 128) : Fin 256 := ⟨128 * g.val + j.val, by omega⟩

/-- The first half: rows 0 … 127. -/
theorem half_lo (v : S256x512.Idx → α) (h : S256x512.Slices ![0, 0] S128x512) :
    extractStridedSlice S128x512 ![0, 0] v h = fun i => v (ix2 (rowOf 0 (i 0)) (i 1)) := by
  funext i
  refine extractStridedSlice_apply ![0, 0] v h i (ix2 (rowOf 0 (i 0)) (i 1)) fun a => ?_
  match a with
  | ⟨0, _⟩ => show 128 * 0 + (i 0).val = 0 + (i 0).val; omega
  | ⟨1, _⟩ => show (i 1).val = 0 + (i 1).val; omega

/-- The second half: rows 128 … 255. -/
theorem half_hi (v : S256x512.Idx → α) (h : S256x512.Slices ![128, 0] S128x512) :
    extractStridedSlice S128x512 ![128, 0] v h = fun i => v (ix2 (rowOf 1 (i 0)) (i 1)) := by
  funext i
  refine extractStridedSlice_apply ![128, 0] v h i (ix2 (rowOf 1 (i 0)) (i 1)) fun a => ?_
  match a with
  | ⟨0, _⟩ => show 128 * 1 + (i 0).val = 128 + (i 0).val; omega
  | ⟨1, _⟩ => show (i 1).val = 0 + (i 1).val; omega

/-- The two halves stacked: row `p` is row `p` of the first for `p < 128`, row `p − 128` of the second otherwise. -/
theorem stack_apply (x y : S128x512.Idx → α) (h : Shape.Concatenates [S128x512, S128x512] S256x512 0)
    (p : Fin 256) (r : Fin 512) :
    concatenate S256x512 0 [⟨S128x512, x⟩, ⟨S128x512, y⟩] h (ix2 p r)
      = if hp : p.val < 128 then x (ix2 ⟨p.val, hp⟩ r) else y (ix2 ⟨p.val - 128, by omega⟩ r) := by
  by_cases hp : p.val < 128
  · rw [dif_pos hp]
    refine concatenate_pair_apply_left 0 x y h (ix2 p r) rfl (ix2 ⟨p.val, hp⟩ r) fun b => ?_
    match b with
    | ⟨0, _⟩ => rfl
    | ⟨1, _⟩ => rfl
  · rw [dif_neg hp]
    refine concatenate_pair_apply_right 0 x y h (ix2 p r) rfl rfl (ix2 ⟨p.val - 128, by omega⟩ r) (fun b hb => ?_) ?_
    · match b with
      | ⟨0, _⟩ => exact absurd rfl hb
      | ⟨1, _⟩ => rfl
    · show p.val - 128 + 128 = p.val
      omega

/-! ## Column extremes over the 128 rows -/

/-- A column minimum of a [128, 512] array: at channel `r`, the fold of `min` from the accumulator's value over the
    row coordinate. -/
theorem col_min (src : FVec Ideal S128x512 .f32) (h : S128x512.Reduces [0] S512) (hφ : FKind.Formats .f32)
    (hacc : (0x7F800000#32 : BitVec 32) = FKind.minimumf.neutral .f32 hφ) (r : Fin 512) :
    multiReduction .minimumf [0] S512 src 0x7F800000#32 h hφ hacc (ix1 r)
      = (Finset.univ : Finset (Fin 128)).fold min (Ideal.ofBits .f32 0x7F800000#32) (fun j => src (ix2 j r)) := by
  rw [multiReduction_minimumf_eq_fold]
  refine (h.fold_filter_drop_single _ _ src (ix1 r)).trans ?_
  refine congrArg (Finset.fold _ _ · _) (funext fun j => congrArg src (funext fun c => Fin.ext ?_))
  rw [h.lift_val]
  match c with
  | ⟨0, _⟩ => rfl
  | ⟨1, _⟩ => rfl

/-- A column maximum likewise, with `max`. -/
theorem col_max (src : FVec Ideal S128x512 .f32) (h : S128x512.Reduces [0] S512) (hφ : FKind.Formats .f32)
    (hacc : (0xFF800000#32 : BitVec 32) = FKind.maximumf.neutral .f32 hφ) (r : Fin 512) :
    multiReduction .maximumf [0] S512 src 0xFF800000#32 h hφ hacc (ix1 r)
      = (Finset.univ : Finset (Fin 128)).fold max (Ideal.ofBits .f32 0xFF800000#32) (fun j => src (ix2 j r)) := by
  rw [multiReduction_maximumf_eq_fold]
  refine (h.fold_filter_drop_single _ _ src (ix1 r)).trans ?_
  refine congrArg (Finset.fold _ _ · _) (funext fun j => congrArg src (funext fun c => Fin.ext ?_))
  rw [h.lift_val]
  match c with
  | ⟨0, _⟩ => rfl
  | ⟨1, _⟩ => rfl

end Cert.KernelIdeal.BlockLayout

end
-- ==== Proof.BlockProducts.lean ====
/-
  The kernel body's two matrix products into a zero accumulator, read at an output entry as plain sums on the
  extended reals: entry (p, r) of a [256, 4096] × [4096, 512] product is ∑ d, a[p, d] · b[d, r], and entry (p, o)
  of a [256, 512] × [512, 4096] product is ∑ r, a[p, r] · b[r, o]. The contraction index of each product has one
  axis, so it is re-indexed by that axis's coordinate.
-/
import proofs.«145089_j23596550324371_2_alg».proof.Proof.Gen.KernelIdeal.Skeleton
import Idealize.ShloMosaic.Lib.ValueIdx
import Idealize.ShloMosaic.PureOps.Ideal.Laws

noncomputable section

namespace Cert.KernelIdeal.BlockProducts

open Cert.KernelIdeal Idealize.ShloMosaic Idealize.ShloMosaic.ValueIdx

local notation "dDown" => dot_S256x4096_S4096x512_S256x512_1_0_0_1_n_n
local notation "dUp" => dot_S256x512_S512x4096_S256x4096_1_0_0_1_n_n

/-! ## The operand indices of the down projection's product -/

theorem down_lhs_0 (i : S256x512.Idx) (q : (dDown).contr.Idx) : ((dDown).lhsIdx i q 0).val = (i 0).val := by
  unfold DotDims.lhsIdx
  rw [dif_neg (show ¬(0 : Fin S256x4096.rank) ∈ (dDown).lhsBatch by decide), dif_pos (show (0 : Fin S256x4096.rank) ∈ (dDown).lhsNonContracting by decide)]
  rfl

theorem down_lhs_1 (i : S256x512.Idx) (q : (dDown).contr.Idx) : ((dDown).lhsIdx i q 1).val = (q ⟨0, by decide⟩).val :=
  (dDown).lhsIdx_val_of_single rfl i q

theorem down_rhs_0 (i : S256x512.Idx) (q : (dDown).contr.Idx) : ((dDown).rhsIdx i q 0).val = (q ⟨0, by decide⟩).val :=
  (dDown).rhsIdx_val_of_single rfl i q

theorem down_rhs_1 (i : S256x512.Idx) (q : (dDown).contr.Idx) : ((dDown).rhsIdx i q 1).val = (i 1).val := by
  unfold DotDims.rhsIdx
  rw [dif_neg (show ¬(1 : Fin S4096x512.rank) ∈ (dDown).rhsBatch by decide), dif_pos (show (1 : Fin S4096x512.rank) ∈ (dDown).rhsNonContracting by decide)]
  rfl

/-- Entry (p, r) of the down projection's product into zero: the sum over the feature coordinate. -/
theorem down_apply (a : FVec Ideal S256x4096 .f32) (b : FVec Ideal S4096x512 .f32) (prec : Option ContractPrecision)
    (p : Fin 256) (r : Fin 512) :
    matmul dDown prec a b (constant S256x512 .f32 0x00000000#32) (ix2 p r) = ∑ d : Fin 4096, a (ix2 p d) * b (ix2 d r) := by
  show FloatOps.matmul dDown prec a b (constant S256x512 .f32 0x00000000#32) (ix2 p r) = _
  rw [Ideal.matmul_constant_zero_apply, ← Equiv.sum_comp (contrEquiv1 dDown 4096 rfl rfl).symm]
  refine Finset.sum_congr rfl fun k _ => ?_
  have hk := contrEquiv1_symm_val dDown 4096 rfl rfl k
  have el : (dDown).lhsIdx (ix2 p r) ((contrEquiv1 dDown 4096 rfl rfl).symm k) = ix2 p k := funext fun c => Fin.ext (by
    match c with
    | ⟨0, _⟩ => exact down_lhs_0 _ _
    | ⟨1, _⟩ => exact (down_lhs_1 _ _).trans hk)
  have er : (dDown).rhsIdx (ix2 p r) ((contrEquiv1 dDown 4096 rfl rfl).symm k) = ix2 k r := funext fun c => Fin.ext (by
    match c with
    | ⟨0, _⟩ => exact (down_rhs_0 _ _).trans hk
    | ⟨1, _⟩ => exact down_rhs_1 _ _)
  rw [el, er]

/-! ## The operand indices of the up projection's product -/

theorem up_lhs_0 (i : S256x4096.Idx) (q : (dUp).contr.Idx) : ((dUp).lhsIdx i q 0).val = (i 0).val := by
  unfold DotDims.lhsIdx
  rw [dif_neg (show ¬(0 : Fin S256x512.rank) ∈ (dUp).lhsBatch by decide), dif_pos (show (0 : Fin S256x512.rank) ∈ (dUp).lhsNonContracting by decide)]
  rfl

theorem up_lhs_1 (i : S256x4096.Idx) (q : (dUp).contr.Idx) : ((dUp).lhsIdx i q 1).val = (q ⟨0, by decide⟩).val :=
  (dUp).lhsIdx_val_of_single rfl i q

theorem up_rhs_0 (i : S256x4096.Idx) (q : (dUp).contr.Idx) : ((dUp).rhsIdx i q 0).val = (q ⟨0, by decide⟩).val :=
  (dUp).rhsIdx_val_of_single rfl i q

theorem up_rhs_1 (i : S256x4096.Idx) (q : (dUp).contr.Idx) : ((dUp).rhsIdx i q 1).val = (i 1).val := by
  unfold DotDims.rhsIdx
  rw [dif_neg (show ¬(1 : Fin S512x4096.rank) ∈ (dUp).rhsBatch by decide), dif_pos (show (1 : Fin S512x4096.rank) ∈ (dUp).rhsNonContracting by decide)]
  rfl

/-- Entry (p, o) of the up projection's product into zero: the sum over the rank-channel coordinate. -/
theorem up_apply (a : FVec Ideal S256x512 .bf16) (b : FVec Ideal S512x4096 .bf16) (prec : Option ContractPrecision)
    (p : Fin 256) (o : Fin 4096) :
    matmul dUp prec a b (constant S256x4096 .f32 0x00000000#32) (ix2 p o) = ∑ r : Fin 512, a (ix2 p r) * b (ix2 r o) := by
  show FloatOps.matmul dUp prec a b (constant S256x4096 .f32 0x00000000#32) (ix2 p o) = _
  rw [Ideal.matmul_constant_zero_apply, ← Equiv.sum_comp (contrEquiv1 dUp 512 rfl rfl).symm]
  refine Finset.sum_congr rfl fun k _ => ?_
  have hk := contrEquiv1_symm_val dUp 512 rfl rfl k
  have el : (dUp).lhsIdx (ix2 p o) ((contrEquiv1 dUp 512 rfl rfl).symm k) = ix2 p k := funext fun c => Fin.ext (by
    match c with
    | ⟨0, _⟩ => exact up_lhs_0 _ _
    | ⟨1, _⟩ => exact (up_lhs_1 _ _).trans hk)
  have er : (dUp).rhsIdx (ix2 p o) ((contrEquiv1 dUp 512 rfl rfl).symm k) = ix2 k o := funext fun c => Fin.ext (by
    match c with
    | ⟨0, _⟩ => exact (up_rhs_0 _ _).trans hk
    | ⟨1, _⟩ => exact up_rhs_1 _ _)
  rw [el, er]

end Cert.KernelIdeal.BlockProducts

end
-- ==== Proof.BlockValue.lean ====
/-
  What the kernel body leaves in its output block, as one function of the four blocks it loads, index by index.

  With x0 : [1, 256, 4096] the block of 256 tokens, x1 : [4096, 512] the transposed down-projection matrix,
  x2 : [512, 4096] the transposed up-projection matrix and x3 : [1, 4096] the bias row:

    y[p, r]    = ∑ d, x0[0, p, d] · x1[d, r]
    for each half g ∈ {0, 1} of 128 rows: lo[g, r], hi[g, r] the minimum and maximum of y over the half's rows
    z[p, r]    = the dequantized y[p, r] in its half (GroupQuant.deq)
    out[0, p, o] = ∑ r, z[p, r] · x2[r, o] + x3[0, o]

  The body computes each half with the same arithmetic (it multiplies by the reciprocal of the step where the
  specification divides: GroupQuant.deq_of_reciprocal), stacks the halves, multiplies and adds the bias.
-/
import proofs.«145089_j23596550324371_2_alg».proof.Proof.Gen.KernelIdeal.Frame
import proofs.«145089_j23596550324371_2_alg».proof.Proof.GroupQuant
import proofs.«145089_j23596550324371_2_alg».proof.Proof.BlockLayout
import proofs.«145089_j23596550324371_2_alg».proof.Proof.BlockProducts

noncomputable section

namespace Cert.KernelIdeal.BlockValue

open Cert.KernelIdeal Cert.KernelIdeal.Gen Idealize.ShloMosaic Idealize.ShloMosaic.ValueIdx
open Cert.KernelIdeal.BlockLayout Cert.KernelIdeal.BlockProducts Cert.GroupQuant

/-! ## One half: the body's arithmetic as a function of the half, its minima (a row) and its maxima (a vector) -/

/-- The body's quantize-dequantize arithmetic on a 128-row half `y`, given the row `lo` of its column minima and the
    vector `hi` of its column maxima: the step `max ((hi − lo) / 3) ε`, its reciprocal, the clamped rounded level,
    level · step + lo, narrowed. -/
def quantHalf (y : FVec Ideal S128x512 .f32) (lo : FVec Ideal S1x512 .f32) (hi : FVec Ideal S512 .f32) : FVec Ideal S128x512 .bf16 :=
  have v39 : FVec Ideal S1x512 .f32 := shapeCast S1x512 hi shapeCasts_S512_S1x512
  have v40 : FVec Ideal S1x512 .f32 := subf v39 lo
  have cst_17 : Ideal .f32 := Scalar.ofBits .f32 0x40400000#32
  have v41 : FVec Ideal S1x512 .f32 := broadcast S1x512 cst_17
  have v42 : FVec Ideal S1x512 .f32 := divf v40 v41
  have cst_18 : Ideal .f32 := Scalar.ofBits .f32 0x322BCC77#32
  have v43 : FVec Ideal S1x512 .f32 := broadcast S1x512 cst_18
  have v44 : FVec Ideal S1x512 .f32 := maximumf v42 v43
  have cst_19 : Ideal .f32 := Scalar.ofBits .f32 0x3F800000#32
  have v45 : FVec Ideal S1x512 .f32 := broadcast S1x512 cst_19
  have v46 : FVec Ideal S1x512 .f32 := divf v45 v44
  have v47 : FVec Ideal S128x512 .f32 := broadcastTo S128x512 lo broadcasts_S1x512_S128x512
  have v48 : FVec Ideal S128x512 .f32 := subf y v47
  have v49 : FVec Ideal S128x512 .f32 := broadcastTo S128x512 v46 broadcasts_S1x512_S128x512
  have v50 : FVec Ideal S128x512 .f32 := mulf v48 v49
  have v51 : FVec Ideal S128x512 .f32 := roundeven v50
  have cst_20 : Ideal .f32 := Scalar.ofBits .f32 0x00000000#32
  have cst_21 : Ideal .f32 := Scalar.ofBits .f32 0x40400000#32
  have v52 : FVec Ideal S128x512 .f32 := broadcast S128x512 cst_20
  have v53 : FVec Ideal S128x512 .f32 := maximumf v52 v51
  have v54 : FVec Ideal S128x512 .f32 := broadcast S128x512 cst_21
  have v55 : FVec Ideal S128x512 .f32 := minimumf v54 v53
  have v56 : FVec Ideal S128x512 .f32 := broadcastTo S128x512 v44 broadcasts_S1x512_S128x512
  have v57 : FVec Ideal S128x512 .f32 := mulf v55 v56
  have v58 : FVec Ideal S128x512 .f32 := broadcastTo S128x512 lo broadcasts_S1x512_S128x512
  have v59 : FVec Ideal S128x512 .f32 := addf v57 v58
  truncf .bf16 v59 bitsLt_bf16_f32

/-- At row `j` and channel `r` of the half it is the dequantized `y[j, r]` between `lo[0, r]` and `hi[r]`. -/
theorem quantHalf_apply (y : FVec Ideal S128x512 .f32) (lo : FVec Ideal S1x512 .f32) (hi : FVec Ideal S512 .f32)
    (j : Fin 128) (r : Fin 512) :
    quantHalf y lo hi (ix2 j r) = deq (y (ix2 j r)) (lo (ix2 0 r)) (hi (ix1 r)) := by
  unfold quantHalf
  rw [row_of_vec]
  simp only [rows_of_row]
  exact deq_of_reciprocal (y (ix2 j r)) (lo (ix2 0 r)) (hi (ix1 r))

/-! ## The block's projection, its halves' extremes, and the dequantized block -/

section Block

variable (x0 : Vec Ideal S1x256x4096 .f32) (x1 : Vec Ideal S4096x512 .f32) (x2 : Vec Ideal S512x4096 .bf16) (x3 : Vec Ideal S1x4096 .f32)

/-- The block's down projection: row `p`, channel `r`. -/
def yB (p : Fin 256) (r : Fin 512) : EReal := ∑ d : Fin 4096, x0 (ix3 0 p d) * x1 (ix2 d r)

/-- The minimum of channel `r` over the rows of half `g`. -/
def loB (g : Fin 2) (r : Fin 512) : EReal :=
  (Finset.univ : Finset (Fin 128)).fold min (Ideal.ofBits .f32 0x7F800000#32) (fun j => yB x0 x1 (rowOf g j) r)

/-- The maximum likewise. -/
def hiB (g : Fin 2) (r : Fin 512) : EReal :=
  (Finset.univ : Finset (Fin 128)).fold max (Ideal.ofBits .f32 0xFF800000#32) (fun j => yB x0 x1 (rowOf g j) r)

/-- The dequantized projection at row `j` of half `g`. -/
def zB (g : Fin 2) (j : Fin 128) (r : Fin 512) : EReal := deq (yB x0 x1 (rowOf g j) r) (loB x0 x1 g r) (hiB x0 x1 g r)

/-- The first product of the body is the block's projection. -/
theorem pay2_apply (p : Fin 256) (r : Fin 512) : k0_pay2 (F := Ideal) x0 x1 (ix2 p r) = yB x0 x1 p r := by
  unfold k0_pay2
  rw [mat_of_block, shapeCast_self]
  exact down_apply _ _ _ p r

/-- The body's first half of the projection. -/
theorem half0_apply (j : Fin 128) (r : Fin 512) :
    extractStridedSlice S128x512 ![0, 0] (k0_pay2 (F := Ideal) x0 x1) slices_S256x512_o0_0_S128x512 (ix2 j r) = yB x0 x1 (rowOf 0 j) r :=
  (congrFun (half_lo _ _) (ix2 j r)).trans (pay2_apply x0 x1 (rowOf 0 j) r)

/-- The body's second half of the projection. -/
theorem pay6_apply (j : Fin 128) (r : Fin 512) : k0_pay6 (F := Ideal) x0 x1 (ix2 j r) = yB x0 x1 (rowOf 1 j) r := by
  unfold k0_pay6
  exact (congrFun (half_hi _ _) (ix2 j r)).trans (pay2_apply x0 x1 (rowOf 1 j) r)

/-- The second half's row of column minima. -/
theorem pay7_apply (r : Fin 512) : k0_pay7 (F := Ideal) x0 x1 (ix2 0 r) = loB x0 x1 1 r := by
  unfold k0_pay7
  rw [row_of_vec]
  refine (col_min _ _ _ _ r).trans ?_
  exact congrArg (Finset.fold _ _ · _) (funext fun j => pay6_apply x0 x1 j r)

/-- The second half's vector of column maxima. -/
theorem pay8_apply (r : Fin 512) : k0_pay8 (F := Ideal) x0 x1 (ix1 r) = hiB x0 x1 1 r := by
  unfold k0_pay8
  refine (col_max _ _ _ _ r).trans ?_
  exact congrArg (Finset.fold _ _ · _) (funext fun j => pay6_apply x0 x1 j r)

/-- The first half, dequantized: the body's arithmetic on the first half with its own extremes. -/
theorem pay5_apply (j : Fin 128) (r : Fin 512) : k0_pay5 (F := Ideal) x0 x1 (ix2 j r) = zB x0 x1 0 j r := by
  have e : k0_pay5 (F := Ideal) x0 x1
      = quantHalf (extractStridedSlice S128x512 ![0, 0] (k0_pay2 (F := Ideal) x0 x1) slices_S256x512_o0_0_S128x512)
          (shapeCast S1x512 (multiReduction .minimumf [0] S512 (extractStridedSlice S128x512 ![0, 0] (k0_pay2 (F := Ideal) x0 x1) slices_S256x512_o0_0_S128x512) 0x7F800000#32 reduces_S128x512_S512 (.inl rfl) rfl) shapeCasts_S512_S1x512)
          (multiReduction .maximumf [0] S512 (extractStridedSlice S128x512 ![0, 0] (k0_pay2 (F := Ideal) x0 x1) slices_S256x512_o0_0_S128x512) 0xFF800000#32 reduces_S128x512_S512 (.inl rfl) rfl) := rfl
  rw [e, quantHalf_apply, half0_apply]
  have hl : shapeCast S1x512 (multiReduction .minimumf [0] S512 (extractStridedSlice S128x512 ![0, 0] (k0_pay2 (F := Ideal) x0 x1) slices_S256x512_o0_0_S128x512) 0x7F800000#32 reduces_S128x512_S512 (.inl rfl) rfl) shapeCasts_S512_S1x512 (ix2 0 r) = loB x0 x1 0 r := by
    rw [row_of_vec]
    refine (col_min _ _ _ _ r).trans ?_
    exact congrArg (Finset.fold _ _ · _) (funext fun j => half0_apply x0 x1 j r)
  have hh : multiReduction .maximumf [0] S512 (extractStridedSlice S128x512 ![0, 0] (k0_pay2 (F := Ideal) x0 x1) slices_S256x512_o0_0_S128x512) 0xFF800000#32 reduces_S128x512_S512 (.inl rfl) rfl (ix1 r) = hiB x0 x1 0 r := by
    refine (col_max _ _ _ _ r).trans ?_
    exact congrArg (Finset.fold _ _ · _) (funext fun j => half0_apply x0 x1 j r)
  rw [hl, hh]
  rfl

/-- The second half, dequantized. -/
theorem half1_apply (j : Fin 128) (r : Fin 512) :
    quantHalf (k0_pay6 (F := Ideal) x0 x1) (k0_pay7 (F := Ideal) x0 x1) (k0_pay8 (F := Ideal) x0 x1) (ix2 j r) = zB x0 x1 1 j r := by
  rw [quantHalf_apply, pay6_apply, pay7_apply, pay8_apply]
  rfl

/-- Row `p` of the block as a half and a row of it. -/
abbrev halfOf (p : Fin 256) : Fin 2 := ⟨p.val / 128, by omega⟩
abbrev inHalf (p : Fin 256) : Fin 128 := ⟨p.val % 128, by omega⟩

/-- WHAT THE BODY LEAVES in its output block, at token `p` and output feature `o`. -/
theorem body_apply (p : Fin 256) (o : Fin 4096) :
    out0_4 (F := Ideal) x0 x1 x2 x3 (ix3 0 p o)
      = (∑ r : Fin 512, zB x0 x1 (halfOf p) (inHalf p) r * x2 (ix2 r o)) + x3 (ix2 0 o) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_4
  rw [View.canon_unit_zero hz3]
  simp only [View.ld_unit_zero (S := S1x256x4096) hz3, View.ld_unit_zero (S := S4096x512) hz2,
    View.ld_unit_zero (S := S512x4096) hz2, View.ld_unit_zero (S := S1x4096) hz2]
  have e : k0_pay1 (F := Ideal) (k0_pay3 x2) (k0_pay4 x3) (k0_pay5 x0 x1) (k0_pay6 x0 x1) (k0_pay7 x0 x1) (k0_pay8 x0 x1)
      = shapeCast S1x256x4096 (addf (matmul dot_S256x512_S512x4096_S256x4096_1_0_0_1_n_n none
            (concatenate S256x512 0 [⟨S128x512, k0_pay5 (F := Ideal) x0 x1⟩, ⟨S128x512, quantHalf (k0_pay6 (F := Ideal) x0 x1) (k0_pay7 (F := Ideal) x0 x1) (k0_pay8 (F := Ideal) x0 x1)⟩] concatenates_S128x512_S128x512_S256x512_d0)
            (k0_pay3 (F := Ideal) x2) (constant S256x4096 .f32 0x00000000#32))
          (broadcastTo S256x4096 (k0_pay4 (F := Ideal) x3) broadcasts_S1x4096_S256x4096)) shapeCasts_S256x4096_S1x256x4096 := rfl
  rw [e, block_of_mat]
  show matmul dot_S256x512_S512x4096_S256x4096_1_0_0_1_n_n none _ _ _ (ix2 p o) + broadcastTo S256x4096 _ _ (ix2 p o) = _
  rw [up_apply, rows_of_row_wide]
  have e3 : k0_pay3 (F := Ideal) x2 = x2 := by unfold k0_pay3; exact shapeCast_self _ _
  have e4 : k0_pay4 (F := Ideal) x3 = x3 := by unfold k0_pay4; exact shapeCast_self _ _
  rw [e3, e4]
  refine congrArg₂ (· + ·) (Finset.sum_congr rfl fun r _ => congrArg (· * x2 (ix2 r o)) ?_) rfl
  rw [stack_apply]
  by_cases hp : p.val < 128
  · rw [dif_pos hp, pay5_apply]
    have h1 : halfOf p = 0 := Fin.ext (by show p.val / 128 = 0; omega)
    have h2 : inHalf p = ⟨p.val, hp⟩ := Fin.ext (by show p.val % 128 = p.val; omega)
    rw [h1, h2]
  · rw [dif_neg hp, half1_apply]
    have hp' : p.val < 256 := p.isLt
    have h1 : halfOf p = 1 := Fin.ext (by show p.val / 128 = 1; omega)
    have h2 : inHalf p = ⟨p.val - 128, by omega⟩ := Fin.ext (by show p.val % 128 = p.val - 128; omega)
    rw [h1, h2]

end Block

end Cert.KernelIdeal.BlockValue

end
-- ==== Proof.BlockToSpec.lean ====
/-
  The body's output block is a block of the specification: if the four loaded blocks are the pieces of the
  argument arrays that grid point (b, s) stages —

    x0[0, p, d] = X[b, 256 s + p, d],   x1[d, r] = B[r, d],   x2[r, o] = A[o, r],   x3[0, o] = a[o]

  — then what the body leaves at (0, p, o) is GroupQuant.out at (b, 256 s + p, o). The block holds two whole
  groups of 128 tokens (groups 2 s and 2 s + 1), so a half's extremes are its group's: token 256 s + 128 g + j of
  the array is token j of group 2 s + g.
-/
import proofs.«145089_j23596550324371_2_alg».proof.Proof.BlockValue

noncomputable section

namespace Cert.KernelIdeal.BlockToSpec

open Cert.KernelIdeal Cert.KernelIdeal.Gen Idealize.ShloMosaic Idealize.ShloMosaic.ValueIdx
open Cert.KernelIdeal.BlockLayout Cert.KernelIdeal.BlockValue Cert.GroupQuant

variable (X : (⟨3, ![4, 4096, 4096]⟩ : Shape).Idx → EReal) (B : (⟨2, ![512, 4096]⟩ : Shape).Idx → EReal)
  (A : (⟨2, ![4096, 512]⟩ : Shape).Idx → EReal) (a : (⟨1, ![4096]⟩ : Shape).Idx → EReal)
variable (x0 : Vec Ideal S1x256x4096 .f32) (x1 : Vec Ideal S4096x512 .f32) (x2 : Vec Ideal S512x4096 .bf16) (x3 : Vec Ideal S1x4096 .f32)

/-- Token `p` of the block at grid point (·, s) is token `256 s + p` of the array. -/
abbrev tokAt (s : Fin 16) (p : Fin 256) : Fin 4096 := ⟨256 * s.val + p.val, by omega⟩

variable (b : Fin 4) (s : Fin 16)
variable (h0 : ∀ (p : Fin 256) (d : Fin 4096), x0 (ix3 0 p d) = X (ix3 b (tokAt s p) d))
variable (h1 : ∀ (d : Fin 4096) (r : Fin 512), x1 (ix2 d r) = B (ix2 r d))

include h0 h1 in
/-- The block's projection is the array's at the block's tokens. -/
theorem yB_eq (p : Fin 256) (r : Fin 512) : yB x0 x1 p r = proj X B b (tokAt s p) r := by
  unfold yB proj
  exact Finset.sum_congr rfl fun d _ => by rw [h0, h1]

/-- Row `j` of half `g` of the block is token `j` of group `2 s + g`. -/
theorem tokAt_rowOf (g : Fin 2) (j : Fin 128) : tokAt s (rowOf g j) = tok ⟨2 * s.val + g.val, by omega⟩ j :=
  Fin.ext (by show 256 * s.val + (128 * g.val + j.val) = 128 * (2 * s.val + g.val) + j.val; omega)

include h0 h1 in
theorem loB_eq (g : Fin 2) (r : Fin 512) : loB x0 x1 g r = lo X B b ⟨2 * s.val + g.val, by omega⟩ r := by
  unfold loB lo
  refine congrArg (Finset.fold _ _ · _) (funext fun j => ?_)
  rw [yB_eq X B x0 x1 b s h0 h1, tokAt_rowOf]

include h0 h1 in
theorem hiB_eq (g : Fin 2) (r : Fin 512) : hiB x0 x1 g r = hi X B b ⟨2 * s.val + g.val, by omega⟩ r := by
  unfold hiB hi
  refine congrArg (Finset.fold _ _ · _) (funext fun j => ?_)
  rw [yB_eq X B x0 x1 b s h0 h1, tokAt_rowOf]

include h0 h1 in
/-- The dequantized block is the dequantized array at the block's tokens. -/
theorem zB_eq (p : Fin 256) (r : Fin 512) : zB x0 x1 (halfOf p) (inHalf p) r = mid X B b (tokAt s p) r := by
  have hp : p.val < 256 := p.isLt
  have hs : s.val < 16 := s.isLt
  have hrow : rowOf (halfOf p) (inHalf p) = p := Fin.ext (by show 128 * (p.val / 128) + p.val % 128 = p.val; omega)
  have hg : (⟨2 * s.val + (halfOf p).val, by show 2 * s.val + p.val / 128 < 32; omega⟩ : Fin 32) = grp (tokAt s p) :=
    Fin.ext (by show 2 * s.val + p.val / 128 = (256 * s.val + p.val) / 128; omega)
  unfold zB mid
  rw [loB_eq X B x0 x1 b s h0 h1, hiB_eq X B x0 x1 b s h0 h1, yB_eq X B x0 x1 b s h0 h1, hrow, hg]

variable (h2 : ∀ (r : Fin 512) (o : Fin 4096), x2 (ix2 r o) = A (ix2 o r))
variable (h3 : ∀ o : Fin 4096, x3 (ix2 0 o) = a (ix1 o))

include h0 h1 h2 h3 in
/-- WHAT THE BODY LEAVES at (0, p, o) is the specification at (b, 256 s + p, o). -/
theorem block_eq (p : Fin 256) (o : Fin 4096) :
    out0_4 (F := Ideal) x0 x1 x2 x3 (ix3 0 p o) = out X B A a (ix3 b (tokAt s p) o) := by
  rw [body_apply]
  show _ = (∑ r : Fin 512, mid X B b (tokAt s p) r * A (ix2 o r)) + a (ix1 o)
  rw [h3]
  exact congrArg (· + a (ix1 o)) (Finset.sum_congr rfl fun r _ => by rw [zB_eq X B x0 x1 b s h0 h1, h2])

end Cert.KernelIdeal.BlockToSpec

end
-- ==== Proof.ArrayValue.lean ====
/-
  The kernel's result array is the specification of the argument arrays.

  Grid point t = (b, s) stages the block of tokens 256 s … 256 s + 255 of batch b, the whole transposed
  down-projection matrix, the whole transposed up-projection matrix and the whole bias row, and writes back the
  block of the same tokens of the result. The three matrices the region finds were written by the operations before
  it: a transpose of W_B, a transpose of W_A (then narrowed, the identity on the extended reals), and the bias viewed
  as one row. So the four blocks the body loads are the pieces BlockToSpec.block_eq asks for, what the point writes
  back is the block of GroupQuant.out at its tokens, and the 4 × 16 blocks tile the whole array (token t of batch b
  is in block (b, t / 256)).
-/
import proofs.«145089_j23596550324371_2_alg».proof.Proof.Gen.KernelIdeal.Value
import proofs.«145089_j23596550324371_2_alg».proof.Proof.BlockToSpec
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.BlockToSpec Cert.GroupQuant

variable (m : (ℓ : Loc nD τ sig) → Buf (Elt Ideal) ℓ) (ρ : Dev nD → PrngReg)

/-- The specification of the argument arrays as launched on core `c`. -/
abbrev G (c : Dev nD) : S4x4096x4096.Idx → EReal :=
  out (m ((c : Thread nD τ).loc main_arg0)) (m ((c : Thread nD τ).loc main_arg1))
    (m ((c : Thread nD τ).loc main_arg2)) (m ((c : Thread nD τ).loc main_arg3))

/-! ## The arrays the region finds -/

/-- The down-projection matrix, transposed. -/
theorem V_down (c : Dev nD) : (V m c main_v0 : S4096x512.Idx → EReal)
    = transpose S4096x512 [1, 0] (m ((c : Thread nD τ).loc main_arg1)) transposes_S512x4096_S4096x512_1_0 := by
  dsimp only [Gen.V, Gen.hostOps0]; after_results; all_goals rfl

/-- The up-projection matrix, transposed and narrowed. -/
theorem V_up (c : Dev nD) : (V m c main_v2 : S512x4096.Idx → EReal)
    = truncf (F := Ideal) .bf16 (transpose S512x4096 [1, 0] (m ((c : Thread nD τ).loc main_arg2) : S4096x512.Idx → EReal)
        transposes_S4096x512_S512x4096_1_0) bitsLt_bf16_f32 := by
  dsimp only [Gen.V, Gen.hostOps0]; after_results; all_goals rfl

/-- The bias as one row. -/
theorem V_bias (c : Dev nD) : (V m c main_v3 : S1x4096.Idx → EReal)
    = shapeCast S1x4096 (m ((c : Thread nD τ).loc main_arg3)) shapeCasts_S4096_S1x4096 := by
  dsimp only [Gen.V, Gen.hostOps0]; after_results; all_goals rfl

/-! ## The printed index maps over the grid -/

/-- The input block of tokens moves with the output block; the three matrices are staged whole; the output's block
    indices stay in their ranges. Decided over the 64 grid points. -/
theorem idx_facts : ∀ t : Fin cfg0.N,
      win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) < 16 ∧ win0_4.index t (2 : Fin 3) = 0 :=
  (by decide +kernel : ∀ t : Fin grid0.N, _)

/-- Every block of the result is some point's. -/
theorem idx_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-! ## The four blocks a point loads -/

/-- The block of tokens: entry (0, p, d) is the input at batch b, token 256 s + p, feature d. -/
theorem read_tokens (c : Dev nD) (t : Fin cfg0.N) (b : Fin 4) (s : Fin 16) (hb : win0_4.index t (0 : Fin 3) = b.val)
    (hs : win0_4.index t (1 : Fin 3) = s.val) (p : Fin 256) (d : Fin 4096) :
    iblk m c 0 t (ix3 0 p d) = m ((c : Thread nD τ).loc main_arg0) (ix3 b (tokAt s p) d) := by
  obtain ⟨e0, e1, e2, -⟩ := idx_facts t
  show V m c main_arg0 (((cfg0.win 0).blk t).view.emb (ix3 0 p d)) = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 256 + 1 * p.val = 256 * s.val + p.val; omega
  | ⟨2, _⟩ => show win0_0.index t (2 : Fin 3) * 4096 + 1 * d.val = d.val; omega

/-- The transposed down-projection matrix: entry (d, r) is W_B at (r, d). -/
theorem read_down (c : Dev nD) (t : Fin cfg0.N) (d : Fin 4096) (r : Fin 512) :
    iblk m c 1 t (ix2 d r) = m ((c : Thread nD τ).loc main_arg1) (ix2 r d) := by
  obtain ⟨-, -, -, e3, e4, -⟩ := idx_facts t
  show V m c main_v0 (((cfg0.win 1).blk t).view.emb (ix2 d r)) = _
  rw [V_down]
  refine transpose_apply [1, 0] _ _ _ (ix2 r d) fun a => ?_
  match a with
  | ⟨0, _⟩ => show d.val = win0_1.index t (0 : Fin 2) * 4096 + 1 * d.val; omega
  | ⟨1, _⟩ => show r.val = win0_1.index t (1 : Fin 2) * 512 + 1 * r.val; omega

/-- The transposed up-projection matrix: entry (r, o) is W_A at (o, r). -/
theorem read_up (c : Dev nD) (t : Fin cfg0.N) (r : Fin 512) (o : Fin 4096) :
    iblk m c 2 t (ix2 r o) = m ((c : Thread nD τ).loc main_arg2) (ix2 o r) := by
  obtain ⟨-, -, -, -, -, e5, e6, -⟩ := idx_facts t
  show V m c main_v2 (((cfg0.win 2).blk t).view.emb (ix2 r o)) = _
  rw [V_up]
  show transpose S512x4096 [1, 0] (m ((c : Thread nD τ).loc main_arg2)) transposes_S4096x512_S512x4096_1_0 (((cfg0.win 2).blk t).view.emb (ix2 r o)) = _
  refine transpose_apply [1, 0] _ _ _ (ix2 o r) fun a => ?_
  match a with
  | ⟨0, _⟩ => show r.val = win0_2.index t (0 : Fin 2) * 512 + 1 * r.val; omega
  | ⟨1, _⟩ => show o.val = win0_2.index t (1 : Fin 2) * 4096 + 1 * o.val; omega

/-- The bias row: entry (0, o) is the bias at o. -/
theorem read_bias (c : Dev nD) (t : Fin cfg0.N) (o : Fin 4096) :
    iblk m c 3 t (ix2 0 o) = m ((c : Thread nD τ).loc main_arg3) (ix1 o) := by
  obtain ⟨-, -, -, -, -, -, -, e7, e8, -⟩ := idx_facts t
  show V m c main_v3 (((cfg0.win 3).blk t).view.emb (ix2 0 o)) = _
  rw [V_bias]
  refine shapeCast_apply _ _ _ (ix1 o) ?_
  rw [Shape.rowMajor_val_one, Shape.rowMajor_val_two]
  show o.val = (win0_3.index t (0 : Fin 2) * 1 + 1 * 0) * 4096 + (win0_3.index t (1 : Fin 2) * 4096 + 1 * o.val)
  omega

/-! ## What a point writes back, the cover, the array -/

/-- WHAT POINT `t` WRITES BACK is block `t` of the specification. -/
theorem flushed_eq (c : Dev nD) (t : Fin cfg0.N) :
    (dats m 0 c).flushed 4 t = ((cfg0.win 4).blk t).view.read (Elt Ideal) (G m c) := by
  rw [Value.flushed4]
  obtain ⟨-, -, -, -, -, -, -, -, -, hb, hs, e9⟩ := idx_facts t
  funext y
  obtain ⟨q, p, o, rfl⟩ : ∃ (q : Fin 1) (p : Fin 256) (o : Fin 4096), y = ix3 q p o := ⟨y 0, y 1, y 2, eq_ix3 y⟩
  have hq : q = 0 := Fin.ext (by have := q.isLt; show q.val = 0; omega)
  subst hq
  show out0_4 (iblk m c 0 t) (iblk m c 1 t) (iblk m c 2 t) (iblk m c 3 t) (ix3 0 p o)
    = G m c (((cfg0.win 4).blk t).view.emb (ix3 0 p o))
  have hemb : ((cfg0.win 4).blk t).view.emb (ix3 0 p o)
      = ix3 (⟨win0_4.index t (0 : Fin 3), hb⟩ : Fin 4) (tokAt (⟨win0_4.index t (1 : Fin 3), hs⟩ : Fin 16) p) o :=
    funext fun a => Fin.ext (by
      match a with
      | ⟨0, _⟩ => show win0_4.index t (0 : Fin 3) * 1 + 1 * 0 = win0_4.index t (0 : Fin 3); omega
      | ⟨1, _⟩ => show win0_4.index t (1 : Fin 3) * 256 + 1 * p.val = 256 * win0_4.index t (1 : Fin 3) + p.val; omega
      | ⟨2, _⟩ => show win0_4.index t (2 : Fin 3) * 4096 + 1 * o.val = o.val; omega)
  rw [hemb]
  exact block_eq _ _ _ _ _ _ _ _ ⟨win0_4.index t (0 : Fin 3), hb⟩ ⟨win0_4.index t (1 : Fin 3), hs⟩
    (read_tokens m c t _ _ rfl rfl) (read_down m c t) (read_up m c t) (read_bias m c t) p o

/-- An index of the array is in point `t`'s block iff each coordinate is in the block's range on its axis. -/
theorem mem_blk (t : Fin cfg0.N) (i : S4x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v4).slice (win0_4.rect t)).set ↔ _
  rw [View.set_slice_whole, Rect.mem_set_unit]
  exact Iff.rfl

/-- Every index of the result is in some point's block: token t of batch b is in block (b, t / 256). -/
theorem cover (i : S4x4096x4096.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  obtain ⟨t, ht⟩ := idx_onto ⟨(i 0).val, h0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-- THE ARRAY after the run is the specification of the arguments. -/
theorem final (c : Dev nD) : (dats m 0 c).arrAt 4 cfg0.N = G m c :=
  (dats m 0 c).arrAt_eq_of_cover 4 (G m c) (fun t _ => flushed_eq m c t) cover

/-- The kernel's run: it terminates with the result at the specification of the arguments, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference program's result, read index by index, is the group-quantized low-rank projection of
  Proof/GroupQuant.lean: `val_main_v27 x0 x1 x2 x3 = GroupQuant.out x0 x1 x2 x3` on the extended reals.

  The reference computes the down projection y[b, t, r] = ∑ d, X[b, t, d] · B[r, d], transposes it to [b, r, t] and
  regroups the token axis as (g, j) with t = 128 g + j. Row-major positions say which element that is:
  ((b · 512 + r) · 32 + g) · 128 + j = (b · 512 + r) · 4096 + (128 g + j). Over the last axis j it folds `min` and `max`
  from the patterns of +∞ and −∞: a fold over the 128 tokens of group g, in any order, since `min` and `max` commute and
  associate. Every later operation up to the second regrouping acts element by element: the step
  s = max ((hi − lo) / 3) ε, the level min 3 (max 0 (round ((y − lo) / s))) with its bounds converted from the integers 0
  and 3, and level · s + lo. Regrouping back and transposing puts token t at group t / 128, place t % 128, and
  128 · (t / 128) + t % 128 = t. The up projection is the sum over the 512 rank channels and the bias is read at the
  output feature alone.
-/
import proofs.«145089_j23596550324371_2_alg».proof.Proof.Gen.ReferenceIdeal.Read
import proofs.«145089_j23596550324371_2_alg».proof.Proof.GroupQuant
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Cert.GroupQuant

section Stages

variable (x0 : (⟨S4x4096x4096, .f32⟩ : BufTy).Contents (Elt Ideal)) (x1 : (⟨S512x4096, .f32⟩ : BufTy).Contents (Elt Ideal))
  (x2 : (⟨S4096x512, .f32⟩ : BufTy).Contents (Elt Ideal)) (x3 : (⟨S4096, .f32⟩ : BufTy).Contents (Elt Ideal))

/-! ## The down projection, regrouped -/

/-- The regrouped, transposed down projection at `(b, r, g, j)` is the projection of token `128 g + j` on channel `r`:
    the row-major position `((b · 512 + r) · 32 + g) · 128 + j` of the regrouped array is position
    `(b · 512 + r) · 4096 + (128 g + j)` of the transposed one. -/
theorem v2_at (b : Fin 4) (r : Fin 512) (g : Fin 32) (j : Fin 128) :
    val_main_v2 (F := Ideal) x0 x1 (ix4 b r g j) = proj x0 x1 b (tok g j) r := by
  rw [val_main_v2_apply, val_main_v1_apply, val_main_v0_apply]
  unfold proj
  have hb := b.isLt; have hr := r.isLt; have hg := g.isLt; have hj := j.isLt
  refine Finset.sum_congr rfl fun d _ => ?_
  have e1 : lidx_main_v0 (idx_main_v1 (idx_main_v2 (ix4 b r g j))) d = ix3 b (tok g j) d := funext fun a => Fin.ext (by
    match a with
    | ⟨0, _⟩ => show (((b.val * 512 + r.val) * 32 + g.val) * 128 + j.val) / 2097152 = b.val; omega
    | ⟨1, _⟩ => show (((b.val * 512 + r.val) * 32 + g.val) * 128 + j.val) % 4096 = 128 * g.val + j.val; omega
    | ⟨2, _⟩ => rfl)
  have e2 : ridx_main_v0 (idx_main_v1 (idx_main_v2 (ix4 b r g j))) d = ix2 r d := funext fun a => Fin.ext (by
    match a with
    | ⟨0, _⟩ => show (((b.val * 512 + r.val) * 32 + g.val) * 128 + j.val) / 4096 % 512 = r.val; omega
    | ⟨1, _⟩ => rfl)
  rw [e1, e2]

/-! ## The two reductions over a group's 128 tokens -/

/-- The shape fact of a reduction over the last axis, in the form the coordinate-insertion map is defined from. -/
theorem reduces_d3 : S4x512x32x128.Reduces [3] S4x512x32 := by decide

/-- Inserting coordinate `k` on the last axis of `(b, r, g)`. -/
theorem lift_d3 (b : Fin 4) (r : Fin 512) (g : Fin 32) (k : Fin 128) :
    reduces_d3.lift (ix3 b r g) k = ix4 b r g k := funext fun c => Fin.ext (by
  match c with
  | ⟨0, _⟩ => rfl
  | ⟨1, _⟩ => rfl
  | ⟨2, _⟩ => rfl
  | ⟨3, _⟩ => rfl)

/-- The minimum over a group: a fold of `min` over the group's tokens from the initial word. -/
theorem v3_at (b : Fin 4) (r : Fin 512) (g : Fin 32) :
    val_main_v3 (F := Ideal) x0 x1 (ix3 b r g) = lo x0 x1 b g r := by
  unfold val_main_v3
  rw [Host.reduce_eq_fold_single (FloatOps.minimumf (F := Ideal) (φ := .f32)) (val_main_v2 (F := Ideal) x0 x1)
    (val_main_cst (F := Ideal)) reducesTo_S4x512x32x128_S4x512x32_d3 reduces_d3 h_S_ (ix3 b r g)]
  have hf : (val_main_v2 (F := Ideal) x0 x1 ∘ reduces_d3.lift (ix3 b r g)) = fun j : Fin 128 => proj x0 x1 b (tok g j) r :=
    funext fun (k : Fin 128) =>
      (congrArg (val_main_v2 (F := Ideal) x0 x1) (lift_d3 b r g k)).trans (v2_at x0 x1 b r g k)
  rw [hf]
  rfl

/-- The maximum over a group, likewise. -/
theorem v5_at (b : Fin 4) (r : Fin 512) (g : Fin 32) :
    val_main_v5 (F := Ideal) x0 x1 (ix3 b r g) = hi x0 x1 b g r := by
  unfold val_main_v5
  rw [Host.reduce_eq_fold_single (FloatOps.maximumf (F := Ideal) (φ := .f32)) (val_main_v2 (F := Ideal) x0 x1)
    (val_main_cst_0 (F := Ideal)) reducesTo_S4x512x32x128_S4x512x32_d3 reduces_d3 h_S_ (ix3 b r g)]
  have hf : (val_main_v2 (F := Ideal) x0 x1 ∘ reduces_d3.lift (ix3 b r g)) = fun j : Fin 128 => proj x0 x1 b (tok g j) r :=
    funext fun (k : Fin 128) =>
      (congrArg (val_main_v2 (F := Ideal) x0 x1) (lift_d3 b r g k)).trans (v2_at x0 x1 b r g k)
  rw [hf]
  rfl

/-! ## The same three at any index -/

theorem v2_idx (i : S4x512x32x128.Idx) :
    val_main_v2 (F := Ideal) x0 x1 i = proj x0 x1 (i 0) (tok (i 2) (i 3)) (i 1) :=
  (congrArg (val_main_v2 (F := Ideal) x0 x1) (eq_ix4 i)).trans (v2_at x0 x1 (i 0) (i 1) (i 2) (i 3))

theorem v3_idx (i : S4x512x32.Idx) : val_main_v3 (F := Ideal) x0 x1 i = lo x0 x1 (i 0) (i 2) (i 1) :=
  (congrArg (val_main_v3 (F := Ideal) x0 x1) (eq_ix3 i)).trans (v3_at x0 x1 (i 0) (i 1) (i 2))

theorem v5_idx (i : S4x512x32.Idx) : val_main_v5 (F := Ideal) x0 x1 i = hi x0 x1 (i 0) (i 2) (i 1) :=
  (congrArg (val_main_v5 (F := Ideal) x0 x1) (eq_ix3 i)).trans (v5_at x0 x1 (i 0) (i 1) (i 2))

/-! ## The quantizer, element by element -/

/-- The group's minimum with a trailing axis of size one. -/
theorem v4_idx (i : S4x512x32x1.Idx) : val_main_v4 (F := Ideal) x0 x1 i = lo x0 x1 (i 0) (i 2) (i 1) := by
  rw [val_main_v4_apply, v3_idx]
  rfl

/-- The group's maximum with a trailing axis of size one. -/
theorem v6_idx (i : S4x512x32x1.Idx) : val_main_v6 (F := Ideal) x0 x1 i = hi x0 x1 (i 0) (i 2) (i 1) := by
  rw [val_main_v6_apply, v5_idx]
  rfl

/-- The group's quantization step: a third of the range, but at least `ε`. -/
theorem v11_idx (i : S4x512x32x1.Idx) :
    val_main_v11 (F := Ideal) x0 x1 i = step (lo x0 x1 (i 0) (i 2) (i 1)) (hi x0 x1 (i 0) (i 2) (i 1)) := by
  rw [val_main_v11_apply, val_main_v9_apply, val_main_v7_apply, v6_idx, v4_idx, val_main_v8_apply, val_main_cst_1_apply,
    val_main_v10_apply, val_main_cst_2_apply]
  rfl

/-- The dequantized value in the regrouped layout: the level `min 3 (max 0 (round ((y − lo) / s)))` times the step, plus
    `lo`, with `y` the projection and `lo`, `hi`, `s` its group's. -/
theorem v21_idx (i : S4x512x32x128.Idx) :
    val_main_v21 (F := Ideal) x0 x1 i
      = deq (proj x0 x1 (i 0) (tok (i 2) (i 3)) (i 1)) (lo x0 x1 (i 0) (i 2) (i 1)) (hi x0 x1 (i 0) (i 2) (i 1)) := by
  rw [val_main_v21_apply, val_main_v19_apply, val_main_v17_apply, val_main_call1_v4_apply, val_main_call1_v3_apply,
    val_main_c_3_apply, val_main_call1_v2_apply, val_main_call1_v1_apply, val_main_call1_v0_apply, val_main_c_apply,
    val_main_v16_apply, val_main_v15_apply, val_main_v13_apply, val_main_v12_apply, val_main_v14_apply,
    val_main_v18_apply, val_main_v20_apply]
  simp only [v4_idx, v11_idx, v2_idx]
  exact deq_of_quotient _ _ _

/-! ## Back in token order -/

/-- The dequantized middle activation at batch `i 0`, token `i 1`, channel `i 2`: token `t` is token `t % 128` of group
    `t / 128`. -/
theorem v23_idx (i : S4x4096x512.Idx) : val_main_v23 (F := Ideal) x0 x1 i = mid x0 x1 (i 0) (i 1) (i 2) := by
  rw [val_main_v23_apply, val_main_v22_apply, v21_idx]
  unfold mid
  have h0 : (i 0).val < 4 := (i 0).isLt
  have h1 : (i 1).val < 4096 := (i 1).isLt
  have h2 : (i 2).val < 512 := (i 2).isLt
  have e0 : (idx_main_v22 (idx_main_v23 i)) 0 = i 0 := Fin.ext (by
    show (((i 0).val * 512 + (i 2).val) * 4096 + (i 1).val) / 2097152 = (i 0).val; omega)
  have e1 : (idx_main_v22 (idx_main_v23 i)) 1 = i 2 := Fin.ext (by
    show (((i 0).val * 512 + (i 2).val) * 4096 + (i 1).val) / 4096 % 512 = (i 2).val; omega)
  have e2 : (idx_main_v22 (idx_main_v23 i)) 2 = grp (i 1) := Fin.ext (by
    show (((i 0).val * 512 + (i 2).val) * 4096 + (i 1).val) / 128 % 32 = (i 1).val / 128; omega)
  have et : tok ((idx_main_v22 (idx_main_v23 i)) 2) ((idx_main_v22 (idx_main_v23 i)) 3) = i 1 := Fin.ext (by
    show 128 * ((((i 0).val * 512 + (i 2).val) * 4096 + (i 1).val) / 128 % 32)
      + (((i 0).val * 512 + (i 2).val) * 4096 + (i 1).val) % 128 = (i 1).val; omega)
  rw [et, e0, e1, e2]

end Stages

/-! ## The up projection and the bias -/

/-- The reference's result is the group-quantized low-rank projection, index by index. -/
theorem ref_eq (x0 : (⟨S4x4096x4096, .f32⟩ : BufTy).Contents (Elt Ideal)) (x1 : (⟨S512x4096, .f32⟩ : BufTy).Contents (Elt Ideal))
    (x2 : (⟨S4096x512, .f32⟩ : BufTy).Contents (Elt Ideal)) (x3 : (⟨S4096, .f32⟩ : BufTy).Contents (Elt Ideal)) :
    Cert.ReferenceIdeal.Read.val_main_v27 (F := Ideal) x0 x1 x2 x3 = Cert.GroupQuant.out x0 x1 x2 x3 := by
  funext i
  rw [val_main_v27_apply, val_main_v24_apply, val_main_v26_apply, val_main_v25_apply]
  unfold Cert.GroupQuant.out Cert.GroupQuant.outAt
  refine congrArg₂ (· + ·) (Finset.sum_congr rfl fun k _ => ?_) ?_
  · rw [v23_idx]
    have er : ridx_main_v24 i k = ix2 (i 2) k := funext fun a => by
      match a with
      | ⟨0, _⟩ => rfl
      | ⟨1, _⟩ => rfl
    rw [er]
    rfl
  · exact congrArg x3 (funext fun a => by
      match a with
      | ⟨0, _⟩ => rfl)

end Cert.ReferenceIdeal.RefValue

end
-- ==== Proof.lean ====
/-
  A low-rank linear layer with a per-group quantized middle activation, computed by one tiled kernel, against the
  same computation written with whole-array operations: the two give equal results on the extended reals.

    y   = input · W_Bᵀ                    ([4, 4096, 4096] × [512, 4096] → [4, 4096, 512])
    z   = y quantized to four levels and dequantized, per rank channel and per group of 128 consecutive tokens:
          with lo, hi the group's minimum and maximum and s = max ((hi − lo) / 3) ε the step,
          z = min 3 (max 0 (round-half-even ((y − lo) / s))) · s + lo
    out = z · W_Aᵀ + b_A                  ([4, 4096, 512] × [4096, 512] → [4, 4096, 4096])

  The kernel works on blocks of 256 tokens, each holding two whole groups, so a block's group extremes are the
  array's; it multiplies by the reciprocal 1 / s where the other program divides by s, which is the same on the
  extended reals because s ≥ ε > 0 is never zero (Proof/GroupQuant.lean); narrowing a float format and the order of a
  sum change nothing there. Both programs are shown equal to ONE function of the four argument arrays
  (GroupQuant.out): the kernel block by block (Proof/BlockValue.lean, Proof/BlockToSpec.lean), its blocks tiling the
  result (Proof/ArrayValue.lean), the other program operation by operation (Proof/RefValue.lean). The precondition
  (finite inputs) is not used by the value claim. Each program's run (termination, no fault, arguments unchanged) is
  the generated frame; the kernel has no sanctioned rewrite to account for, so that conjunct is trivial.
-/
import proofs.«145089_j23596550324371_2_alg».proof.Defs
import proofs.«145089_j23596550324371_2_alg».proof.Proof.Gen.Kernel
import proofs.«145089_j23596550324371_2_alg».proof.Proof.Gen.Kernel.Skeleton
import proofs.«145089_j23596550324371_2_alg».proof.Proof.Gen.Kernel.Launch
import proofs.«145089_j23596550324371_2_alg».proof.Proof.Gen.Kernel.Points
import proofs.«145089_j23596550324371_2_alg».proof.Proof.Gen.Kernel.Frame
import proofs.«145089_j23596550324371_2_alg».proof.Proof.Gen.KernelIdeal
import proofs.«145089_j23596550324371_2_alg».proof.Proof.Gen.KernelIdeal.Skeleton
import proofs.«145089_j23596550324371_2_alg».proof.Proof.Gen.KernelIdeal.Launch
import proofs.«145089_j23596550324371_2_alg».proof.Proof.Gen.KernelIdeal.Points
import proofs.«145089_j23596550324371_2_alg».proof.Proof.Gen.KernelIdeal.Frame
import proofs.«145089_j23596550324371_2_alg».proof.Proof.Gen.ReferenceIdeal
import proofs.«145089_j23596550324371_2_alg».proof.Proof.Gen.Pre_finite_inputs
import proofs.«145089_j23596550324371_2_alg».proof.Proof.Gen.KernelIdeal.Value
import proofs.«145089_j23596550324371_2_alg».proof.Proof.Gen.ReferenceIdeal.Run
import proofs.«145089_j23596550324371_2_alg».proof.Proof.Gen.ReferenceIdeal.Read
import proofs.«145089_j23596550324371_2_alg».proof.Proof.ArrayValue
import proofs.«145089_j23596550324371_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The whole-array program runs, its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the four arguments both programs end with the result at GroupQuant.out of the
    arguments: the kernel by its blocks, the whole-array program operation by operation. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
